-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S8x64x4096 : S_.BroadcastsInDim S8x64x4096 (![] : Fin 0 → Fin S8x64x4096.rank)
  reducesTo_S8x64x4096_S_d0_1_2 : S8x64x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8x64x4096 .f32) (main_arg1 : IVec S11008x4096 32) (main_arg2 : FVec F S11008x1 .f32) (main_arg3 : FVec F S11008 .f32) : IVec S_ 1 :=
  let main_v0 : FVec F S8x64x4096 .f32 := Host.absf main_arg0
  let main_cst : FVec F S_ .f32 := constant S_ .f32 0x7F800000#32
  let main_v1 : FVec F S8x64x4096 .f32 := broadcastInDim S8x64x4096 ![] bcast_S_S8x64x4096 main_cst
  let main_v2 : IVec S8x64x4096 1 := cmpf .olt main_v0 main_v1
  let main_c : IVec S_ 1 := constantI S_ 1 1#1
  let main_v3 : IVec S_ 1 := (fun x v => Host.reduce IntOp.andi x v reducesTo_S8x64x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S512x4096 : Shape := ⟨2, ![512, 4096]⟩
abbrev S1x11008 : Shape := ⟨2, ![1, 11008]⟩
abbrev S512x11008 : Shape := ⟨2, ![512, 11008]⟩
abbrev S256x4096 : Shape := ⟨2, ![256, 4096]⟩
abbrev S256x1 : Shape := ⟨2, ![256, 1]⟩
abbrev S1x256 : Shape := ⟨2, ![1, 256]⟩
abbrev S512x256 : Shape := ⟨2, ![512, 256]⟩
abbrev S8x64x11008 : Shape := ⟨3, ![8, 64, 11008]⟩

abbrev nBuf : Space → Nat
  | .hbm => 9
  | .vmem => 9
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S512x4096, .f32⟩
  | .hbm, ⟨5, _⟩ => ⟨S512x4096, .bf16⟩
  | .hbm, ⟨6, _⟩ => ⟨S1x11008, .f32⟩
  | .hbm, ⟨7, _⟩ => ⟨S512x11008, .f32⟩
  | .hbm, ⟨8, _⟩ => ⟨S8x64x11008, .f32⟩
  | .local _ .vmem, ⟨0, _⟩ => ⟨S512x4096, .bf16⟩
  | .local _ .vmem, ⟨1, _⟩ => ⟨S256x4096, .i32⟩
  | .local _ .vmem, ⟨2, _⟩ => ⟨S256x4096, .i32⟩
  | .local _ .vmem, ⟨3, _⟩ => ⟨S256x1, .f32⟩
  | .local _ .vmem, ⟨4, _⟩ => ⟨S256x1, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | _, _ => ⟨S8x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x64x4096_S512x4096 : S8x64x4096.ShapeCasts S512x4096
  bitsLt_bf16_f32 : FTy.bits .bf16 < FTy.bits .f32
  shapeCasts_S11008_S1x11008 : S11008.ShapeCasts S1x11008
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S512x11008_S8x64x11008 : S512x11008.ShapeCasts S8x64x11008
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .bf16 = 32 ∨ (Rect.block (s := S512x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S11008x1.size a
  hwx0_2 : ∀ i : grid0.Coords, EltTy.bits .f32 = 32 ∨ (Rect.block (s := S11008x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x11008.size a
  hwx0_4 : ∀ i : grid0.Coords, EltTy.bits .f32 = 32 ∨ (Rect.block (s := S512x11008) S512x256.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v1) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x4096 : Shape := ⟨3, ![8, 64, 4096]⟩
abbrev S11008x4096 : Shape := ⟨2, ![11008, 4096]⟩
abbrev S11008x1 : Shape := ⟨2, ![11008, 1]⟩
abbrev S11008 : Shape := ⟨1, ![11008]⟩
abbrev S8x64x11008 : Shape := ⟨3, ![8, 64, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S8x64x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S8x64x11008, .f32⟩
  | .hbm, ⟨8, _⟩ => ⟨S1x1x11008, .f32⟩
  | .hbm, ⟨9, _⟩ => ⟨S8x64x11008, .f32⟩
  | .hbm, ⟨10, _⟩ => ⟨S8x64x11008, .f32⟩
  | _, _ => ⟨S8x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S8x64x11008_0_1_2 : S1x1x11008.BroadcastsInDim S8x64x11008 (![0, 1, 2] : Fin 3 → Fin S8x64x11008.rank)
  dot_S8x64x4096_S11008x4096_S8x64x11008_2_1_01_0_n_n_wf : DotDims.WF S8x64x4096 S11008x4096 S8x64x11008 [2] [1] [0, 1] [0] [] []

variable [Facts₀]

def dot_S8x64x4096_S11008x4096_S8x64x11008_2_1_01_0_n_n : DotDims S8x64x4096 S11008x4096 S8x64x11008 where
  lhsContracting := [2]
  rhsContracting := [1]
  lhsNonContracting := [0, 1]
  rhsNonContracting := [0]
  lhsBatch := []
  rhsBatch := []
  wf := dot_S8x64x4096_S11008x4096_S8x64x11008_2_1_01_0_n_n_wf

class Facts : Prop extends Facts₀ where

variable [Facts]
-- ==== Proof.Dense.lean ====
/-
  The function both programs compute.

  A quantized dense layer: the weight matrix is stored as integers `q[o, k]` with one scale `s[o]` per output
  row, so the real weight is `w[o, k] = q[o, k] · s[o]`, and the layer is `y[r, o] = Σ_k x[r, k] · w[o, k] + b[o]`.
  Over the extended reals every entry of the result depends on ONE row of `x`, ONE row of `q`, one scale and one
  bias: `entry`. The two array forms below differ only in how the rows of `x` are addressed: as a flat list of 512
  rows (`rows2`) or as an 8 × 64 arrangement of them (`rows3`); row `r` of the first is row `(r / 64, r % 64)` of
  the second.
-/
import Idealize.ShloMosaic.PureOps.Ideal
import Idealize.ShloMosaic.Lib.ValueIdx

noncomputable section

namespace Cert.QuantDense

open Idealize.ShloMosaic Idealize.ShloMosaic.ValueIdx

/-- One entry of the layer: the row of `x` against the dequantized row of the weight, plus the bias. The integer
    `q` enters through the exact integer-to-real conversion. -/
def entry (xrow : Fin 4096 → EReal) (qrow : Fin 4096 → BitVec 32) (s b : EReal) : EReal :=
  (∑ k : Fin 4096, xrow k * (FloatOps.sitofp (F := Ideal) .f32 (qrow k) * s)) + b

/-- Entry `(r, o)` of the layer on 512 flat rows, the bias given as a one-row matrix. -/
def entry2 (x : (⟨2, ![512, 4096]⟩ : Shape).Idx → EReal) (q : (⟨2, ![11008, 4096]⟩ : Shape).Idx → BitVec 32)
    (s : (⟨2, ![11008, 1]⟩ : Shape).Idx → EReal) (b : (⟨2, ![1, 11008]⟩ : Shape).Idx → EReal)
    (r : Fin 512) (o : Fin 11008) : EReal :=
  entry (fun k => x (ix2 r k)) (fun k => q (ix2 o k)) (s (ix2 o (0 : Fin 1))) (b (ix2 (0 : Fin 1) o))

/-- The layer on 512 flat rows. -/
def rows2 (x : (⟨2, ![512, 4096]⟩ : Shape).Idx → EReal) (q : (⟨2, ![11008, 4096]⟩ : Shape).Idx → BitVec 32)
    (s : (⟨2, ![11008, 1]⟩ : Shape).Idx → EReal) (b : (⟨2, ![1, 11008]⟩ : Shape).Idx → EReal) :
    (⟨2, ![512, 11008]⟩ : Shape).Idx → EReal :=
  fun i => entry2 x q s b ⟨(i 0).val, (i 0).isLt⟩ ⟨(i 1).val, (i 1).isLt⟩

theorem rows2_ix2 (x : (⟨2, ![512, 4096]⟩ : Shape).Idx → EReal) (q : (⟨2, ![11008, 4096]⟩ : Shape).Idx → BitVec 32)
    (s : (⟨2, ![11008, 1]⟩ : Shape).Idx → EReal) (b : (⟨2, ![1, 11008]⟩ : Shape).Idx → EReal) (r : Fin 512) (o : Fin 11008) :
    rows2 x q s b (ix2 r o) = entry2 x q s b r o := rfl

/-- Entry `(u, v, o)` of the layer on 8 × 64 rows, the bias a vector. -/
def entry3 (x : (⟨3, ![8, 64, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal)
    (u : Fin 8) (v : Fin 64) (o : Fin 11008) : EReal :=
  entry (fun k => x (ix3 u v k)) (fun k => q (ix2 o k)) (s (ix2 o (0 : Fin 1))) (b (ix1 o))

/-- The layer on 8 × 64 rows. -/
def rows3 (x : (⟨3, ![8, 64, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) :
    (⟨3, ![8, 64, 11008]⟩ : Shape).Idx → EReal :=
  fun i => entry3 x q s b ⟨(i 0).val, (i 0).isLt⟩ ⟨(i 1).val, (i 1).isLt⟩ ⟨(i 2).val, (i 2).isLt⟩

theorem rows3_ix3 (x : (⟨3, ![8, 64, 4096]⟩ : Shape).Idx → EReal) (q : (⟨2, ![11008, 4096]⟩ : Shape).Idx → BitVec 32)
    (s : (⟨2, ![11008, 1]⟩ : Shape).Idx → EReal) (b : (⟨1, ![11008]⟩ : Shape).Idx → EReal) (u : Fin 8) (v : Fin 64) (o : Fin 11008) :
    rows3 x q s b (ix3 u v o) = entry3 x q s b u v o := rfl

end Cert.QuantDense

end
-- ==== Proof.RefDense.lean ====
/-
  The reference computes the layer.

  The reference converts the integer weight, multiplies every row by its scale, contracts `x`'s last axis with the
  weight's last axis and adds the bias broadcast over the rows. Read at an index `(b, s, o)` that is
  `Σ_k x[b, s, k] · (q[o, k] · scale[o]) + bias[o]`: the entry of `rows3`.
-/
import proofs.«150458_j37452114821241_2_alg».proof.Proof.Gen.ReferenceIdeal.Read
import proofs.«150458_j37452114821241_2_alg».proof.Proof.Dense

noncomputable section

namespace Cert.QuantDense

open Idealize.ShloMosaic Idealize.ShloMosaic.ValueIdx Cert.ReferenceIdeal

/-- The reference's result term, read at every index, is `rows3` of the four arguments. -/
theorem reference_eq (x0 : (⟨S8x64x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    Read.val_main_v6 (F := Ideal) x0 x1 x2 x3 = rows3 x0 x1 x2 x3 := by
  funext i
  obtain ⟨u, v, o, rfl⟩ : ∃ (u : Fin 8) (v : Fin 64) (o : Fin 11008), i = ix3 u v o := ⟨i 0, i 1, i 2, eq_ix3 i⟩
  have el : ∀ k : Fin 4096, Read.lidx_main_v3 (ix3 u v o) k = ix3 u v k := fun k =>
    funext fun a => by match a with | ⟨0, _⟩ => rfl | ⟨1, _⟩ => rfl | ⟨2, _⟩ => rfl
  have er : ∀ k : Fin 4096, Read.ridx_main_v3 (ix3 u v o) k = ix2 o k := fun k =>
    funext fun a => by match a with | ⟨0, _⟩ => rfl | ⟨1, _⟩ => rfl
  have e1 : ∀ k : Fin 4096, Read.idx_main_v1 (ix2 o k) = ix2 o (0 : Fin 1) := fun k =>
    funext fun a => by match a with | ⟨0, _⟩ => rfl | ⟨1, _⟩ => rfl
  have e4 : Read.idx_main_v4 (Read.idx_main_v5 (ix3 u v o)) = ix1 o :=
    funext fun a => by match a with | ⟨0, _⟩ => rfl
  rw [rows3_ix3, Read.val_main_v6_apply, Read.val_main_v3_apply, Read.val_main_v5_apply, Read.val_main_v4_apply, e4]
  unfold entry3 entry
  refine congrArg₂ (· + ·) (Finset.sum_congr rfl fun k _ => ?_) rfl
  rw [el, er, Read.val_main_v2_apply, Read.val_main_v0_apply, Read.val_main_v1_apply, e1]
  rfl

end Cert.QuantDense

end
-- ==== Proof.BodyDense.lean ====
/-
  One tile of the layer, as the kernel body computes it.

  At a grid point the body holds all 512 rows of `x`, a tile of 256 rows of the integer weight with their 256 scales,
  and the 256 matching biases as a one-row matrix. It converts and scales the weight tile, takes the product of `x`
  with the tile contracted over the 4096 columns of both (accumulated into zero), and adds the bias row to every row
  of the result. At `(p, q)` of the 512 × 256 tile that is `Σ_k x[p, k] · (q[q, k] · s[q]) + b[q]`: `entry` of row
  `p` of `x` and row `q` of the tile.
-/
import proofs.«150458_j37452114821241_2_alg».proof.Proof.Gen.KernelIdeal.Skeleton
import proofs.«150458_j37452114821241_2_alg».proof.Proof.Dense
import Idealize.ShloMosaic.Lib.Pipeline.Value
import Idealize.ShloMosaic.Lib.ValueIdx
import Idealize.ShloMosaic.PureOps.Ideal.Laws

noncomputable section

namespace Cert.QuantDense

open Idealize.ShloMosaic Idealize.ShloMosaic.ValueIdx Cert.KernelIdeal Cert.KernelIdeal.Gen

/-! ## The product's operand indices -/

theorem lhs_row (j : S512x256.Idx) (κ : dot_S512x4096_S256x4096_S512x256_1_1_0_0_n_n.contr.Idx) :
    (dot_S512x4096_S256x4096_S512x256_1_1_0_0_n_n.lhsIdx j κ 0).val = (j 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl

theorem lhs_col (j : S512x256.Idx) (κ : dot_S512x4096_S256x4096_S512x256_1_1_0_0_n_n.contr.Idx) :
    (dot_S512x4096_S256x4096_S512x256_1_1_0_0_n_n.lhsIdx j κ 1).val = (κ ⟨0, by decide⟩).val :=
  dot_S512x4096_S256x4096_S512x256_1_1_0_0_n_n.lhsIdx_val_of_single rfl j κ

theorem rhs_row (j : S512x256.Idx) (κ : dot_S512x4096_S256x4096_S512x256_1_1_0_0_n_n.contr.Idx) :
    (dot_S512x4096_S256x4096_S512x256_1_1_0_0_n_n.rhsIdx j κ 0).val = (j 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl

theorem rhs_col (j : S512x256.Idx) (κ : dot_S512x4096_S256x4096_S512x256_1_1_0_0_n_n.contr.Idx) :
    (dot_S512x4096_S256x4096_S512x256_1_1_0_0_n_n.rhsIdx j κ 1).val = (κ ⟨0, by decide⟩).val :=
  dot_S512x4096_S256x4096_S512x256_1_1_0_0_n_n.rhsIdx_val_of_single rfl j κ

/-- The product of `a` (512 × 4096) with `w` (256 × 4096), both contracted over their columns and accumulated into
    zero, at `(p, q)`: the sum over `k` of `a[p, k] · w[q, k]`. -/
theorem tile_product (a : FVec Ideal S512x4096 .bf16) (w : FVec Ideal S256x4096 .bf16) (p : Fin 512) (q : Fin 256) :
    matmul dot_S512x4096_S256x4096_S512x256_1_1_0_0_n_n none a w (constant (F := Ideal) S512x256 .f32 0x00000000#32) (ix2 p q)
      = ∑ k : Fin 4096, a (ix2 p k) * w (ix2 q k) := by
  simp only [matmul]
  rw [Ideal.matmul_constant_zero_apply,
    ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 p q)
      ((contrEquiv1 dot_S512x4096_S256x4096_S512x256_1_1_0_0_n_n 4096 rfl rfl).symm k) = ix2 p k :=
    funext fun d => Fin.ext (by
      match d with
      | ⟨0, _⟩ => exact lhs_row _ _
      | ⟨1, _⟩ => exact (lhs_col _ _).trans hk)
  have er : dot_S512x4096_S256x4096_S512x256_1_1_0_0_n_n.rhsIdx (ix2 p q)
      ((contrEquiv1 dot_S512x4096_S256x4096_S512x256_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-! ## The two broadcasts -/

/-- The column of scales spread over the 4096 columns: entry `(q, k)` is scale `q`. -/
theorem scale_spread (s : FVec Ideal S256x1 .f32) (h : S256x1.Broadcasts S256x4096) (q : Fin 256) (k : Fin 4096) :
    broadcastTo S256x4096 s h (ix2 q k) = s (ix2 q (0 : Fin 1)) :=
  broadcastTo_apply s h _ _ fun a => match a with
    | ⟨0, _⟩ => by show q.val = if (256 : Nat) = 1 then 0 else q.val; rw [if_neg (by decide)]
    | ⟨1, _⟩ => by show 0 = if (1 : Nat) = 1 then 0 else k.val; rw [if_pos rfl]

/-- The row of biases spread over the 512 rows: entry `(p, q)` is bias `q`. -/
theorem bias_spread (b : FVec Ideal S1x256 .f32) (h : S1x256.Broadcasts S512x256) (p : Fin 512) (q : Fin 256) :
    broadcastTo S512x256 b h (ix2 p q) = b (ix2 (0 : Fin 1) q) :=
  broadcastTo_apply b h _ _ fun a => match a with
    | ⟨0, _⟩ => by show 0 = if (1 : Nat) = 1 then 0 else p.val; rw [if_pos rfl]
    | ⟨1, _⟩ => by show q.val = if (256 : Nat) = 1 then 0 else q.val; rw [if_neg (by decide)]

/-! ## The body's stored value -/

/-- What the body stores at `(p, q)` of its 512 × 256 tile. -/
theorem body_entry (v0 : Vec Ideal S512x4096 .bf16) (v2 : Vec Ideal S256x4096 .i32) (v4 : Vec Ideal S256x1 .f32)
    (v9 : Vec Ideal S1x256 .f32) (p : Fin 512) (q : Fin 256) :
    k0_pay1 (F := Ideal) v0 v2 v4 v9 (ix2 p q)
      = entry (fun k => v0 (ix2 p k)) (fun k => v2 (ix2 q k)) (v4 (ix2 q (0 : Fin 1))) (v9 (ix2 (0 : Fin 1) q)) := by
  unfold k0_pay1 entry
  dsimp only
  rw [addf_apply, tile_product, bias_spread, shapeCast_self, shapeCast_self]
  congr 1
  refine Finset.sum_congr rfl fun k _ => ?_
  rw [truncf_apply, mulf_apply, scale_spread]
  rfl

end Cert.QuantDense

end
-- ==== Proof.BlockDense.lean ====
/-
  From the 43 tiles to the whole result array.

  Grid point `t` (0 ≤ t < 43) works on all 512 rows of `x`, on rows `256·t … 256·t + 255` of the integer weight and
  of the scales, and on columns `256·t … 256·t + 255` of the one-row bias; it writes columns `256·t … 256·t + 255` of the
  512 × 11008 result. Entry `(p, q)` of what it writes is `entry` of row `p` of `x` and weight row `256·t + q`, which
  is entry `(p, 256·t + q)` of `rows2` of the four whole arrays. The 43 column blocks tile the 11008 columns, so the
  result array ends holding `rows2`.
-/
import proofs.«150458_j37452114821241_2_alg».proof.Proof.Gen.KernelIdeal.Frame
import proofs.«150458_j37452114821241_2_alg».proof.Proof.BodyDense
import Idealize.ShloMosaic.Lib.Pipeline.Value

set_option maxRecDepth 16384

noncomputable section

namespace Cert.QuantDense

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem offsets_zero : (![0, 0] : Fin 2 → Nat) = fun _ => 0 := funext fun a => by fin_cases a <;> rfl

/-- Where each operand's block sits at point `t`: `x` is always block (0, 0); the weight and the scales are row block
    `t`; the bias and the result are column block `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## Each operand's block, read in the whole array -/

/-- `x`'s block at any point is all of `x`. -/
theorem x_block (c : Dev nD) (t : Fin cfg0.N) (y : S512x4096.Idx) (i : S512x4096.Idx)
    (h0 : (i 0).val = (y 0).val) (h1 : (i 1).val = (y 1).val) :
    (iblk m c 0 t : Vec Ideal S512x4096 .bf16) y = (V m c main_v1 : S512x4096.Idx → EReal) i := by
  obtain ⟨e00, e01, -⟩ := block_indices t
  unfold iblk
  rw [View.read_apply]
  show V m c main_v1 _ = V m c main_v1 _
  congr 1
  funext a
  apply Fin.ext
  match a with
  | ⟨0, _⟩ => show win0_0.index t (0 : Fin 2) * 512 + 1 * (y 0).val = (i 0).val; rw [e00, h0]; omega
  | ⟨1, _⟩ => show win0_0.index t (1 : Fin 2) * 4096 + 1 * (y 1).val = (i 1).val; rw [e01, h1]; omega

/-- The weight's block at point `t` is rows `256·t …` of the weight. -/
theorem q_block (c : Dev nD) (t : Fin cfg0.N) (y : S256x4096.Idx) (i : S11008x4096.Idx)
    (h0 : (i 0).val = t.val * 256 + (y 0).val) (h1 : (i 1).val = (y 1).val) :
    (iblk m c 1 t : Vec Ideal S256x4096 .i32) y = (V m c main_arg1 : S11008x4096.Idx → BitVec 32) i := by
  obtain ⟨-, -, e10, e11, -⟩ := block_indices t
  unfold iblk
  rw [View.read_apply]
  show V m c main_arg1 _ = V m c main_arg1 _
  congr 1
  funext a
  apply Fin.ext
  match a with
  | ⟨0, _⟩ => show win0_1.index t (0 : Fin 2) * 256 + 1 * (y 0).val = (i 0).val; rw [e10, h0]; omega
  | ⟨1, _⟩ => show win0_1.index t (1 : Fin 2) * 4096 + 1 * (y 1).val = (i 1).val; rw [e11, h1]; omega

/-- The scales' block at point `t` is rows `256·t …` of the scales. -/
theorem s_block (c : Dev nD) (t : Fin cfg0.N) (y : S256x1.Idx) (i : S11008x1.Idx)
    (h0 : (i 0).val = t.val * 256 + (y 0).val) :
    (iblk m c 2 t : Vec Ideal S256x1 .f32) y = (V m c main_arg2 : S11008x1.Idx → EReal) i := by
  obtain ⟨-, -, -, -, e20, e21, -⟩ := block_indices t
  unfold iblk
  rw [View.read_apply]
  show V m c main_arg2 _ = V m c main_arg2 _
  congr 1
  funext a
  apply Fin.ext
  match a with
  | ⟨0, _⟩ => show win0_2.index t (0 : Fin 2) * 256 + 1 * (y 0).val = (i 0).val; rw [e20, h0]; omega
  | ⟨1, _⟩ =>
    show win0_2.index t (1 : Fin 2) * 1 + 1 * (y 1).val = (i 1).val
    have hy : (y 1).val < 1 := (y 1).isLt
    have hi : (i 1).val < 1 := (i 1).isLt
    rw [e21]; omega

/-- The bias row's block at point `t` is columns `256·t …` of the bias row. -/
theorem b_block (c : Dev nD) (t : Fin cfg0.N) (y : S1x256.Idx) (i : S1x11008.Idx)
    (h1 : (i 1).val = t.val * 256 + (y 1).val) :
    (iblk m c 3 t : Vec Ideal S1x256 .f32) y = (V m c main_v2 : S1x11008.Idx → EReal) i := by
  obtain ⟨-, -, -, -, -, -, e30, e31, -⟩ := block_indices t
  unfold iblk
  rw [View.read_apply]
  show V m c main_v2 _ = V m c main_v2 _
  congr 1
  funext a
  apply Fin.ext
  match a with
  | ⟨0, _⟩ =>
    show win0_3.index t (0 : Fin 2) * 1 + 1 * (y 0).val = (i 0).val
    have hy : (y 0).val < 1 := (y 0).isLt
    have hi : (i 0).val < 1 := (i 0).isLt
    rw [e30]; omega
  | ⟨1, _⟩ => show win0_3.index t (1 : Fin 2) * 256 + 1 * (y 1).val = (i 1).val; rw [e31, h1]; omega

/-! ## One tile is a block of `rows2` -/

/-- If the four loaded blocks are: all of `A0`; rows `256·n …` of `A1` and of `A2`; columns `256·n …` of `A3` — then
    the body's value at `y` is `rows2` of the whole arrays at row `y 0`, column `256·n + y 1`. -/
theorem tile_point (x0 : Vec Ideal S512x4096 .bf16) (x1 : Vec Ideal S256x4096 .i32) (x2 : Vec Ideal S256x1 .f32)
    (x3 : Vec Ideal S1x256 .f32)
    (A0 : S512x4096.Idx → EReal) (A1 : S11008x4096.Idx → BitVec 32) (A2 : S11008x1.Idx → EReal) (A3 : S1x11008.Idx → EReal)
    (n : Nat)
    (h0 : ∀ (y : S512x4096.Idx) (i : S512x4096.Idx), (i 0).val = (y 0).val → (i 1).val = (y 1).val → x0 y = A0 i)
    (h1 : ∀ (y : S256x4096.Idx) (i : S11008x4096.Idx), (i 0).val = n * 256 + (y 0).val → (i 1).val = (y 1).val → x1 y = A1 i)
    (h2 : ∀ (y : S256x1.Idx) (i : S11008x1.Idx), (i 0).val = n * 256 + (y 0).val → x2 y = A2 i)
    (h3 : ∀ (y : S1x256.Idx) (i : S1x11008.Idx), (i 1).val = n * 256 + (y 1).val → x3 y = A3 i)
    (y : S512x256.Idx) (i : S512x11008.Idx) (hi0 : (i 0).val = (y 0).val) (hi1 : (i 1).val = n * 256 + (y 1).val) :
    k0_pay1 (F := Ideal) x0 x1 x2 x3 y = rows2 A0 A1 A2 A3 i := by
  obtain ⟨p, q, rfl⟩ : ∃ (p : Fin 512) (q : Fin 256), y = ix2 p q := ⟨y 0, y 1, eq_ix2 y⟩
  obtain ⟨r, o, rfl⟩ : ∃ (r : Fin 512) (o : Fin 11008), i = ix2 r o := ⟨i 0, i 1, eq_ix2 i⟩
  have hr : r.val = p.val := hi0
  have ho : o.val = n * 256 + q.val := hi1
  rw [body_entry, rows2_ix2]
  unfold entry2 entry
  rw [h2 (ix2 q (0 : Fin 1)) (ix2 o (0 : Fin 1)) ho, h3 (ix2 (0 : Fin 1) q) (ix2 (0 : Fin 1) o) ho]
  refine congrArg₂ (· + ·) (Finset.sum_congr rfl fun k _ => ?_) rfl
  show x0 (ix2 p k) * (FloatOps.sitofp (F := Ideal) .f32 (x1 (ix2 q k)) * _) = A0 (ix2 r k) * (FloatOps.sitofp (F := Ideal) .f32 (A1 (ix2 o k)) * _)
  rw [h0 (ix2 p k) (ix2 r k) hr rfl, h1 (ix2 q k) (ix2 o k) ho rfl]

/-- WHAT POINT `t` WRITES BACK is block `t` of `rows2` of the four arrays as the region finds them. -/
theorem tile_eq (c : Dev nD) (t : Fin cfg0.N) :
    (dats m 0 c).flushed 4 t = ((cfg0.win 4).blk t).view.read (Elt Ideal)
      (rows2 (V m c main_v1) (V m c main_arg1) (V m c main_arg2) (V m c main_v2)) := by
  show (cfg0.win 4).cut (grid0.coords t) ((dats m 0 c).after 4 t) = _
  rw [after0_4]
  unfold out0_4
  rw [View.canon_unit_zero offsets_zero]
  simp only [View.ld_unit_zero (S := S512x4096) offsets_zero, View.ld_unit_zero (S := S256x4096) offsets_zero,
    View.ld_unit_zero (S := S256x1) offsets_zero, View.ld_unit_zero (S := S1x256) offsets_zero]
  obtain ⟨-, -, -, -, -, -, -, -, e40, e41⟩ := block_indices t
  funext j
  rw [View.read_apply]
  refine tile_point (iblk m c 0 t) (iblk m c 1 t) (iblk m c 2 t) (iblk m c 3 t)
    (V m c main_v1) (V m c main_arg1) (V m c main_arg2) (V m c main_v2) t.val
    (x_block m c t) (q_block m c t) (s_block m c t) (b_block m c t)
    ((cfg0.win 4).xinj (grid0.coords t) j) (((cfg0.win 4).blk t).view.emb j) ?_ ?_
  · show win0_4.index t (0 : Fin 2) * 512 + 1 * (j 0).val = (j 0).val
    rw [e40]; omega
  · show win0_4.index t (1 : Fin 2) * 256 + 1 * (j 1).val = t.val * 256 + (j 1).val
    rw [e41]; omega

/-! ## The tiles cover the array -/

/-- An index of the result array is in point `t`'s block iff each coordinate is in the block's range on its axis. -/
theorem mem_tile (t : Fin cfg0.N) (i : S512x11008.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v3).slice (win0_4.rect t)).set ↔ _
  rw [View.set_slice_whole, Rect.mem_set_unit]
  exact Iff.rfl

/-- Column `o` lies in the block of point `o / 256`. -/
theorem tiles_cover (i : S512x11008.Idx) :
    ∃ t : Fin cfg0.N, (cfg0.win 4).flush t = true ∧ i ∈ ((cfg0.win 4).blk t).view.set := by
  have hi0 : (i 0).val < 512 := (i 0).isLt
  have hi1 : (i 1).val < 11008 := (i 1).isLt
  have hN : grid0.N = 43 := N_0
  let t : Fin cfg0.N := ⟨(i 1).val / 256, by show (i 1).val / 256 < grid0.N; rw [hN]; omega⟩
  obtain ⟨-, -, -, -, -, -, -, -, e40, e41⟩ := block_indices t
  have ht : t.val = (i 1).val / 256 := rfl
  refine ⟨t, flush0_4 t, ?_⟩
  rw [mem_tile]
  intro a
  match a with
  | ⟨0, _⟩ =>
    show win0_4.index t (0 : Fin 2) * 512 ≤ (i 0).val ∧ (i 0).val < win0_4.index t (0 : Fin 2) * 512 + 512
    rw [e40]; omega
  | ⟨1, _⟩ =>
    show win0_4.index t (1 : Fin 2) * 256 ≤ (i 1).val ∧ (i 1).val < win0_4.index t (1 : Fin 2) * 256 + 256
    rw [e41, ht]; omega

/-- THE RESULT ARRAY after the region: `rows2` of the four arrays as the region finds them. -/
theorem array_eq (c : Dev nD) :
    (dats m 0 c).arrAt 4 cfg0.N = rows2 (V m c main_v1) (V m c main_arg1) (V m c main_arg2) (V m c main_v2) :=
  (dats m 0 c).arrAt_eq_of_cover 4 _ (fun t _ => tile_eq m c t) tiles_cover

end Cert.QuantDense

end
-- ==== Proof.FlatRows.lean ====
/-
  The flat rows and the 8 × 64 rows are the same layer.

  Reading an 8 × 64 × 4096 array as 512 × 4096 puts row `(u, v)` at flat row `64·u + v` (both sit at row-major
  position `(64·u + v)·4096 + k`); reading a vector of 11008 biases as a 1 × 11008 matrix keeps column `o`; reading the
  512 × 11008 result as 8 × 64 × 11008 sends flat row `64·u + v` back to `(u, v)`. Since an entry of the layer
  depends on one row of `x` only, the layer on the flattened rows, read back, is the layer on the 8 × 64 rows.
-/
import proofs.«150458_j37452114821241_2_alg».proof.Proof.Dense
import Idealize.ShloMosaic.Lib.Pipeline.Value
import Idealize.ShloMosaic.Lib.ValueLayout

noncomputable section

namespace Cert.QuantDense

open Idealize.ShloMosaic Idealize.ShloMosaic.ValueIdx

theorem rows2_flat (X : (⟨3, ![8, 64, 4096]⟩ : Shape).Idx → EReal) (Q : (⟨2, ![11008, 4096]⟩ : Shape).Idx → BitVec 32)
    (S : (⟨2, ![11008, 1]⟩ : Shape).Idx → EReal) (B : (⟨1, ![11008]⟩ : Shape).Idx → EReal)
    (h1 : (⟨3, ![8, 64, 4096]⟩ : Shape).ShapeCasts ⟨2, ![512, 4096]⟩)
    (h2 : (⟨1, ![11008]⟩ : Shape).ShapeCasts ⟨2, ![1, 11008]⟩)
    (h3 : (⟨2, ![512, 11008]⟩ : Shape).ShapeCasts ⟨3, ![8, 64, 11008]⟩) :
    shapeCast ⟨3, ![8, 64, 11008]⟩ (rows2 (shapeCast ⟨2, ![512, 4096]⟩ X h1) Q S (shapeCast ⟨2, ![1, 11008]⟩ B h2)) h3
      = rows3 X Q S B := by
  funext i
  obtain ⟨u, v, o, rfl⟩ : ∃ (u : Fin 8) (v : Fin 64) (o : Fin 11008), i = ix3 u v o := ⟨i 0, i 1, i 2, eq_ix3 i⟩
  have hu : u.val < 8 := u.isLt
  have hv : v.val < 64 := v.isLt
  have hr : u.val * 64 + v.val < 512 := by omega
  rw [shapeCast_apply _ h3 (ix3 u v o) (ix2 (⟨u.val * 64 + v.val, hr⟩ : Fin 512) o) (by
      rw [Shape.rowMajor_val_two, Shape.rowMajor_val_three]; rfl),
    rows2_ix2, rows3_ix3]
  unfold entry2 entry3
  have hx : ∀ k : Fin 4096, shapeCast ⟨2, ![512, 4096]⟩ X h1 (ix2 (⟨u.val * 64 + v.val, hr⟩ : Fin 512) k) = X (ix3 u v k) :=
    fun k => shapeCast_apply X h1 _ _ (by rw [Shape.rowMajor_val_two, Shape.rowMajor_val_three]; rfl)
  rw [shapeCast_a_1a_apply B h2 (0 : Fin 1) o]
  simp only [hx]

end Cert.QuantDense

end
-- ==== Proof.HostDense.lean ====
/-
  The kernel program around its region, and the value of its result.

  Before the region the program flattens `x` to 512 × 4096 (and changes its float format, which at the exact values
  is the identity) and reads the bias vector as a 1 × 11008 matrix; the weight and the scales go in as they are. After
  the region it reads the 512 × 11008 result as 8 × 64 × 11008. With the region's result array equal to `rows2` of
  what the region found, the program's result is `rows3` of its four arguments.
-/
import proofs.«150458_j37452114821241_2_alg».proof.Proof.BlockDense
import proofs.«150458_j37452114821241_2_alg».proof.Proof.FlatRows
import Idealize.ShloMosaic.Lib.StableHlo.Run

set_option maxRecDepth 16384

noncomputable section

namespace Cert.QuantDense

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The region finds `x` flattened. -/
theorem x_flat (c : Dev nD) :
    (V m c main_v1 : S512x4096.Idx → EReal)
      = shapeCast S512x4096 (m ((c : Thread nD τ).loc main_arg0) : S8x64x4096.Idx → EReal) Facts₀.shapeCasts_S8x64x4096_S512x4096 := by
  show StableHlo.after hostOps0 (fun b => m (c, b)) (Proc.devRef .tc main_v1) = _
  after_results
  rfl

/-- The region finds the bias as a one-row matrix. -/
theorem bias_row (c : Dev nD) :
    (V m c main_v2 : S1x11008.Idx → EReal)
      = shapeCast S1x11008 (m ((c : Thread nD τ).loc main_arg3) : S11008.Idx → EReal) Facts₀.shapeCasts_S11008_S1x11008 := by
  show StableHlo.after hostOps0 (fun b => m (c, b)) (Proc.devRef .tc main_v2) = _
  after_results
  rfl

/-- The program's result is the region's result array read as 8 × 64 × 11008. -/
theorem result_unflat (c : Dev nD) :
    (Pipeline.afterTail₀ cfgs (dats m) 0 (V0 m) [hostOps1] c main_v4 : S8x64x11008.Idx → EReal)
      = shapeCast S8x64x11008 ((dats m 0 c).arrAt 4 cfg0.N : S512x11008.Idx → EReal) Facts₀.shapeCasts_S512x11008_S8x64x11008 := by
  unfold Pipeline.afterTail₀
  show StableHlo.after hostOps1 _ (Proc.devRef .tc main_v4) = _
  after_results
  exact congrArg (fun X : S512x11008.Idx → EReal => shapeCast S8x64x11008 X Facts₀.shapeCasts_S512x11008_S8x64x11008)
    (Pipeline.withArrays_arr spec0 launch0.win.arr_inj c (V0 m c) (fun w => (dats m 0 c).arrAt w cfg0.N) 4)

/-- THE PROGRAM'S RESULT: the layer of its four arguments. -/
theorem result_eq (c : Dev nD) :
    (Pipeline.afterTail₀ cfgs (dats m) 0 (V0 m) [hostOps1] c main_v4 : S8x64x11008.Idx → EReal)
      = rows3 (m ((c : Thread nD τ).loc main_arg0)) (m ((c : Thread nD τ).loc main_arg1))
          (m ((c : Thread nD τ).loc main_arg2)) (m ((c : Thread nD τ).loc main_arg3)) := by
  rw [result_unflat, array_eq, x_flat, bias_row, V_main_arg1, V_main_arg2]
  exact rows2_flat _ _ _ _ _ _ _

/-- The kernel program's run, read: every weakly fair execution terminates with the result at the layer of the
    arguments and the arguments unchanged. -/
theorem run : θ_run defs (onTc (τ := τ) (main (F := Ideal))) ⟨m, fun _ => 0, ρ⟩ fun r => ∀ c : Dev nD,
      r.2.mem ((c.tc : Thread nD τ).loc main_v4) = rows3 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.QuantDense

end
-- ==== Proof.lean ====
/-
  A quantized dense layer, tiled over its output columns, against the plain einsum.

  Both programs compute `y[u, v, o] = Σ_k x[u, v, k] · (q[o, k] · s[o]) + b[o]` over the extended reals, where `q` is the
  integer weight, `s` the per-row scales and `b` the bias (`Cert.QuantDense.rows3`).

  The reference does it in one piece: convert and scale the weight, contract with `x`, add the bias.
  The kernel program flattens the 8 × 64 rows of `x` to 512, runs 43 grid points each producing the 256 output columns
  that belong to 256 rows of the weight, and un-flattens the result. One grid point's tile is the matching block of the
  flat layer (the product of `x` with a row tile of the dequantized weight, plus the bias), the 43 tiles cover the
  11008 columns, and the flattening only renames rows. No law beyond that is needed: the two sides are the same sums
  of the same products in the same order, so the inputs' finiteness is never used. A change of float format is the
  identity on the exact values, and the kernel's product accumulates into an exact zero.

  The idealization rewrote nothing, so the third claim is trivial; the three frames are the programs' runs with the
  result forgotten.
-/
import proofs.«150458_j37452114821241_2_alg».proof.Defs
import proofs.«150458_j37452114821241_2_alg».proof.Proof.Gen.Kernel
import proofs.«150458_j37452114821241_2_alg».proof.Proof.Gen.Kernel.Skeleton
import proofs.«150458_j37452114821241_2_alg».proof.Proof.Gen.Kernel.Launch
import proofs.«150458_j37452114821241_2_alg».proof.Proof.Gen.Kernel.Points
import proofs.«150458_j37452114821241_2_alg».proof.Proof.Gen.Kernel.Frame
import proofs.«150458_j37452114821241_2_alg».proof.Proof.Gen.KernelIdeal
import proofs.«150458_j37452114821241_2_alg».proof.Proof.Gen.KernelIdeal.Skeleton
import proofs.«150458_j37452114821241_2_alg».proof.Proof.Gen.KernelIdeal.Launch
import proofs.«150458_j37452114821241_2_alg».proof.Proof.Gen.KernelIdeal.Points
import proofs.«150458_j37452114821241_2_alg».proof.Proof.Gen.KernelIdeal.Frame
import proofs.«150458_j37452114821241_2_alg».proof.Proof.Gen.ReferenceIdeal
import proofs.«150458_j37452114821241_2_alg».proof.Proof.Gen.Pre_finite_inputs
import proofs.«150458_j37452114821241_2_alg».proof.Proof.Gen.ReferenceIdeal.Run
import proofs.«150458_j37452114821241_2_alg».proof.Proof.Gen.ReferenceIdeal.Read
import proofs.«150458_j37452114821241_2_alg».proof.Proof.RefDense
import proofs.«150458_j37452114821241_2_alg».proof.Proof.HostDense
import Idealize.ShloMosaic.Adequacy
import Idealize.ShloMosaic.Init

noncomputable section

namespace Cert.Proof

open Idealize.ShloMosaic Idealize.SL.Sem Cert.QuantDense

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `rows3` of the (agreeing) arguments. -/
theorem algebraic : Cert.algebraic_KernelIdeal_ReferenceIdeal := by
  intro m ρ m' ρ' _ hagree
  refine ⟨_, Cert.QuantDense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, reference_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
